-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16x2048 : Shape := ⟨2, ![16, 2048]⟩
abbrev S1024x74 : Shape := ⟨2, ![1024, 74]⟩
abbrev S74 : Shape := ⟨1, ![74]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x74 : S_.BroadcastsInDim S1024x74 (![] : Fin 0 → Fin S1024x74.rank)
  reducesTo_S1024x74_S_d0_1 : S1024x74.ReducesTo [0, 1] S_
  bcast_S_S74 : S_.BroadcastsInDim S74 (![] : Fin 0 → Fin S74.rank)
  reducesTo_S74_S_d0 : S74.ReducesTo [0] S_

variable [Facts]

def fn_part1 {F : FTy → Type} [FloatOps F] (main_v13 : IVec S_ 1) (main_v16 : IVec S74 1) : IVec S_ 1 :=
  let main_c_5 : IVec S_ 1 := constantI S_ 1 1#1
  let main_v17 : IVec S_ 1 := (fun x v => Host.reduce IntOp.andi x v reducesTo_S74_S_d0 h_S_) main_v16 main_c_5
  let main_v18 : IVec S_ 1 := andi main_v13 main_v17
  main_v18

def fn {F : FTy → Type} [FloatOps F] (main_arg0 : FVec F S16x2048x1024 .f32) (main_arg1 : FVec F S16x2048x1024 .f32) (main_arg2 : IVec S16x2048 32) (main_arg3 : IVec S16x2048 1) (main_arg4 : IVec S16x2048 1) (main_arg5 : FVec F S1024x74 .f32) (main_arg6 : FVec F S74 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x74 .f32 := Host.absf main_arg5
  let main_cst_2 : FVec F S_ .f32 := constant S_ .f32 0x7F800000#32
  let main_v10 : FVec F S1024x74 .f32 := broadcastInDim S1024x74 ![] bcast_S_S1024x74 main_cst_2
  let main_v11 : IVec S1024x74 1 := cmpf .olt main_v9 main_v10
  let main_c_3 : IVec S_ 1 := constantI S_ 1 1#1
  let main_v12 : IVec S_ 1 := (fun x v => Host.reduce IntOp.andi x v reducesTo_S1024x74_S_d0_1 h_S_) main_v11 main_c_3
  let main_v13 : IVec S_ 1 := andi main_v8 main_v12
  let main_v14 : FVec F S74 .f32 := Host.absf main_arg6
  let main_cst_4 : FVec F S_ .f32 := constant S_ .f32 0x7F800000#32
  let main_v15 : FVec F S74 .f32 := broadcastInDim S74 ![] bcast_S_S74 main_cst_4
  let main_v16 : IVec S74 1 := cmpf .olt main_v14 main_v15
  fn_part1 (F := F) main_v13 main_v16
-- ==== Kernel.lean ====
abbrev S16x2048x1024 : Shape := ⟨3, ![16, 2048, 1024]⟩
abbrev S16x2048 : Shape := ⟨2, ![16, 2048]⟩
abbrev S1024x74 : Shape := ⟨2, ![1024, 74]⟩
abbrev S74 : Shape := ⟨1, ![74]⟩
abbrev S_ : Shape := ⟨0, ![]⟩
abbrev S16x2048x1 : Shape := ⟨3, ![16, 2048, 1]⟩
abbrev S1 : Shape := ⟨1, ![1]⟩
abbrev S1x1x1 : Shape := ⟨3, ![1, 1, 1]⟩
abbrev S16x2048x74 : Shape := ⟨3, ![16, 2048, 74]⟩
abbrev S1x512x1024 : Shape := ⟨3, ![1, 512, 1024]⟩
abbrev S1x512x1 : Shape := ⟨3, ![1, 512, 1]⟩
abbrev S1x512x74 : Shape := ⟨3, ![1, 512, 74]⟩
abbrev S512x1024 : Shape := ⟨2, ![512, 1024]⟩
abbrev S512x1 : Shape := ⟨2, ![512, 1]⟩
abbrev S512x74 : Shape := ⟨2, ![512, 74]⟩
abbrev S1x74 : Shape := ⟨2, ![1, 74]⟩

abbrev nBuf : Space → Nat
  | .hbm => 45
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048, .i32⟩
  | .hbm, ⟨3, _⟩ => ⟨S16x2048, .i1⟩
  | .hbm, ⟨4, _⟩ => ⟨S16x2048, .i1⟩
  | .hbm, ⟨5, _⟩ => ⟨S1024x74, .f32⟩
  | .hbm, ⟨6, _⟩ => ⟨S74, .f32⟩
  | .hbm, ⟨7, _⟩ => ⟨S_, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048, .f32⟩
  | .hbm, ⟨18, _⟩ => ⟨S16x2048, .f32⟩
  | .hbm, ⟨19, _⟩ => ⟨S16x2048, .f32⟩
  | .hbm, ⟨20, _⟩ => ⟨S16x2048x1, .f32⟩
  | .hbm, ⟨21, _⟩ => ⟨S16x2048x1, .i32⟩
  | .hbm, ⟨22, _⟩ => ⟨S_, .i32⟩
  | .hbm, ⟨23, _⟩ => ⟨S16x2048x1, .i32⟩
  | .hbm, ⟨24, _⟩ => ⟨S16x2048x1, .i1⟩
  | .hbm, ⟨25, _⟩ => ⟨S_, .i32⟩
  | .hbm, ⟨26, _⟩ => ⟨S16x2048x1, .i32⟩
  | .hbm, ⟨27, _⟩ => ⟨S16x2048x1, .i32⟩
  | .hbm, ⟨28, _⟩ => ⟨S16x2048x1, .i32⟩
  | .hbm, ⟨29, _⟩ => ⟨S1, .i32⟩
  | .hbm, ⟨30, _⟩ => ⟨S_, .i32⟩
  | .hbm, ⟨31, _⟩ => ⟨S16x2048x1, .i32⟩
  | .hbm, ⟨32, _⟩ => ⟨S16x2048x1, .i1⟩
  | .hbm, ⟨33, _⟩ => ⟨S1x1x1, .i32⟩
  | .hbm, ⟨34, _⟩ => ⟨S16x2048x1, .i32⟩
  | .hbm, ⟨35, _⟩ => ⟨S16x2048x1, .i1⟩
  | .hbm, ⟨36, _⟩ => ⟨S16x2048x1, .i1⟩
  | .hbm, ⟨37, _⟩ => ⟨S_, .i1⟩
  | .hbm, ⟨38, _⟩ => ⟨S16x2048, .i1⟩
  | .hbm, ⟨39, _⟩ => ⟨S16x2048x1024, .f32⟩
  | .hbm, ⟨40, _⟩ => ⟨S16x2048x1024, .i1⟩
  | .hbm, ⟨41, _⟩ => ⟨S_, .f32⟩
  | .hbm, ⟨42, _⟩ => ⟨S16x2048x1024, .f32⟩
  | .hbm, ⟨43, _⟩ => ⟨S16x2048x1024, .f32⟩
  | .hbm, ⟨44, _⟩ => ⟨S16x2048x74, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S1x512x1, .f32⟩
  | .local _ .vmem, ⟨8, _⟩ => ⟨S1024x74, .f32⟩
  | .local _ .vmem, ⟨9, _⟩ => ⟨S74, .f32⟩
  | .local _ .vmem, ⟨10, _⟩ => ⟨S1x512x74, .f32⟩
  | .local _ .vmem, ⟨11, _⟩ => ⟨S1x512x74, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_c_2 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_c_3 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v10 : Ref sig .tc := ⟨.hbm, 43, rfl⟩
abbrev main_v11 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x74 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S74 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x74 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S1_S1x1x1_2 : S1.BroadcastsInDim S1x1x1 (![2] : Fin 1 → Fin S1x1x1.rank)
  bcast_S1x1x1_S16x2048x1_0_1_2 : S1x1x1.BroadcastsInDim S16x2048x1 (![0, 1, 2] : Fin 3 → Fin S16x2048x1.rank)
  reducesTo_S16x2048x1_S16x2048_d2 : S16x2048x1.ReducesTo [2] S16x2048
  h_S_ : 0 < S_.numel
  bcast_S16x2048_S16x2048x1024_0_1 : S16x2048.BroadcastsInDim S16x2048x1024 (![0, 1] : Fin 2 → Fin S16x2048x1024.rank)
  bcast_S_S16x2048x1024 : S_.BroadcastsInDim S16x2048x1024 (![] : Fin 0 → Fin S16x2048x1024.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x1024 : S512x1.Broadcasts S512x1024
  bitsLt_bf16_f32 : FTy.bits .bf16 < FTy.bits .f32
  inb_S1024x74_S1024x74_0_0 : ∀ a, (![0, 0] : Fin 2 → Nat) a + S1024x74.size a ≤ S1024x74.size a
  h_S1024x74 : 0 < S1024x74.numel
  inb_S74_S74_0 : ∀ a, (![0] : Fin 1 → Nat) a + S74.size a ≤ S74.size a
  h_S74 : 0 < S74.numel
  shapeCasts_S74_S1x74 : S74.ShapeCasts S1x74
  broadcasts_S1x74_S512x74 : S1x74.Broadcasts S512x74
  inb_S1x512x74_S1x512x74_0_0_0 : ∀ a, (![0, 0, 0] : Fin 3 → Nat) a + S1x512x74.size a ≤ S1x512x74.size a
  h_S1x512x74 : 0 < S1x512x74.numel
  shapeCasts_S1x512x74_S512x74 : S1x512x74.ShapeCasts S512x74
  shapeCasts_S512x74_S1x512x74 : S512x74.ShapeCasts S1x512x74
  gather_S16x2048x1024_S16x2048x1_S16x2048x1024_2_1_0_0_1_2_111024_wf : GatherDims.WF S16x2048x1024 S16x2048x1 S16x2048x1024 [2] [1] [0] [1] [0] 2 ![1, 1, 1024]
  dot_S512x1024_S1024x74_S512x74_1_0_0_1_n_n_wf : DotDims.WF S512x1024 S1024x74 S512x74 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x2048x1024.size a
  hwx0_1 : ∀ i : grid0.Coords, EltTy.bits .f32 = 32 ∨ (Rect.block (s := S16x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S16x2048x1.size a
  hwx0_2 : ∀ i : grid0.Coords, EltTy.bits .f32 = 32 ∨ (Rect.block (s := S16x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S16x2048x1.size a
  hwx0_3 : ∀ i : grid0.Coords, EltTy.bits .f32 = 32 ∨ (Rect.block (s := S16x2048x1) S1x512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x74.size a ≤ S1024x74.size a
  hwx0_4 : ∀ i : grid0.Coords, EltTy.bits .f32 = 32 ∨ (Rect.block (s := S1024x74) S1024x74.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S74.size a ≤ S74.size a
  hwx0_5 : ∀ i : grid0.Coords, EltTy.bits .f32 = 32 ∨ (Rect.block (s := S74) S74.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x74.size a ≤ S16x2048x74.size a
  hwx0_6 : ∀ i : grid0.Coords, EltTy.bits .f32 = 32 ∨ (Rect.block (s := S16x2048x74) S1x512x74.size (cc0_transform_6 i) (hinb0_6 i)).WholeWords (EltTy.packing .f32)

variable [Facts₀]

def gather_S16x2048x1024_S16x2048x1_S16x2048x1024_2_1_0_0_1_2_111024 : GatherDims S16x2048x1024 S16x2048x1 S16x2048x1024 where
  offsetDims := [2]
  collapsedSliceDims := [1]
  operandBatchingDims := [0]
  startIndicesBatchingDims := [0]
  startIndexMap := [1]
  indexVectorDim := 2
  sliceSizes := ![1, 1, 1024]
  wf := gather_S16x2048x1024_S16x2048x1_S16x2048x1024_2_1_0_0_1_2_111024_wf
def dot_S512x1024_S1024x74_S512x74_1_0_0_1_n_n : DotDims S512x1024 S1024x74 S512x74 where
  lhsContracting := [1]
  rhsContracting := [0]
  lhsNonContracting := [0]
  rhsNonContracting := [1]
  lhsBatch := []
  rhsBatch := []
  wf := dot_S512x1024_S1024x74_S512x74_1_0_0_1_n_n_wf

abbrev win0_0 : Pipeline.Window sig grid0 :=
  Pipeline.Window.ofSpec (Memref.whole main_v10) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024x74.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S74.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x512x74.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S16x2048 : Shape := ⟨2, ![16, 2048]⟩
abbrev S1024x74 : Shape := ⟨2, ![1024, 74]⟩
abbrev S74 : Shape := ⟨1, ![74]⟩
abbrev S_ : Shape := ⟨0, ![]⟩
abbrev S16x2048x1 : Shape := ⟨3, ![16, 2048, 1]⟩
abbrev S1 : Shape := ⟨1, ![1]⟩
abbrev S1x1x1 : Shape := ⟨3, ![1, 1, 1]⟩
abbrev S16x2048x74 : Shape := ⟨3, ![16, 2048, 74]⟩
abbrev S1x1x74 : Shape := ⟨3, ![1, 1, 74]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048, .i32⟩
  | .hbm, ⟨3, _⟩ => ⟨S16x2048, .i1⟩
  | .hbm, ⟨4, _⟩ => ⟨S16x2048, .i1⟩
  | .hbm, ⟨5, _⟩ => ⟨S1024x74, .f32⟩
  | .hbm, ⟨6, _⟩ => ⟨S74, .f32⟩
  | .hbm, ⟨7, _⟩ => ⟨S_, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x2048x1, .i32⟩
  | .hbm, ⟨14, _⟩ => ⟨S_, .i32⟩
  | .hbm, ⟨15, _⟩ => ⟨S16x2048x1, .i32⟩
  | .hbm, ⟨16, _⟩ => ⟨S16x2048x1, .i1⟩
  | .hbm, ⟨17, _⟩ => ⟨S_, .i32⟩
  | .hbm, ⟨18, _⟩ => ⟨S16x2048x1, .i32⟩
  | .hbm, ⟨19, _⟩ => ⟨S16x2048x1, .i32⟩
  | .hbm, ⟨20, _⟩ => ⟨S16x2048x1, .i32⟩
  | .hbm, ⟨21, _⟩ => ⟨S1, .i32⟩
  | .hbm, ⟨22, _⟩ => ⟨S_, .i32⟩
  | .hbm, ⟨23, _⟩ => ⟨S16x2048x1, .i32⟩
  | .hbm, ⟨24, _⟩ => ⟨S16x2048x1, .i1⟩
  | .hbm, ⟨25, _⟩ => ⟨S1x1x1, .i32⟩
  | .hbm, ⟨26, _⟩ => ⟨S16x2048x1, .i32⟩
  | .hbm, ⟨27, _⟩ => ⟨S16x2048x1, .i1⟩
  | .hbm, ⟨28, _⟩ => ⟨S16x2048x1, .i1⟩
  | .hbm, ⟨29, _⟩ => ⟨S_, .i1⟩
  | .hbm, ⟨30, _⟩ => ⟨S16x2048, .i1⟩
  | .hbm, ⟨31, _⟩ => ⟨S16x2048x1024, .f32⟩
  | .hbm, ⟨32, _⟩ => ⟨S16x2048x1024, .i1⟩
  | .hbm, ⟨33, _⟩ => ⟨S_, .f32⟩
  | .hbm, ⟨34, _⟩ => ⟨S16x2048x1024, .f32⟩
  | .hbm, ⟨35, _⟩ => ⟨S16x2048x1024, .f32⟩
  | .hbm, ⟨36, _⟩ => ⟨S16x2048x1, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048, .f32⟩
  | .hbm, ⟨41, _⟩ => ⟨S16x2048, .f32⟩
  | .hbm, ⟨42, _⟩ => ⟨S16x2048x1, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1, .i1⟩
  | .hbm, ⟨47, _⟩ => ⟨S_, .f32⟩
  | .hbm, ⟨48, _⟩ => ⟨S_, .f32⟩
  | .hbm, ⟨49, _⟩ => ⟨S16x2048x1024, .i1⟩
  | .hbm, ⟨50, _⟩ => ⟨S16x2048x1024, .f32⟩
  | .hbm, ⟨51, _⟩ => ⟨S16x2048x1024, .f32⟩
  | .hbm, ⟨52, _⟩ => ⟨S16x2048x74, .f32⟩
  | .hbm, ⟨53, _⟩ => ⟨S1x1x74, .f32⟩
  | .hbm, ⟨54, _⟩ => ⟨S16x2048x74, .f32⟩
  | .hbm, ⟨55, _⟩ => ⟨S16x2048x74, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_c_1 : Ref sig .tc := ⟨.hbm, 21, rfl⟩
abbrev main_call1_c_2 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_c_3 : Ref sig .tc := ⟨.hbm, 29, rfl⟩
abbrev main_call1_v11 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_2 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩

abbrev nD : Nat := 1
abbrev τ : Topo := Topo.v7x

variable {F : FTy → Type} [FloatOps F]

class Facts₀ : Prop where
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S1_S1x1x1_2 : S1.BroadcastsInDim S1x1x1 (![2] : Fin 1 → Fin S1x1x1.rank)
  bcast_S1x1x1_S16x2048x1_0_1_2 : S1x1x1.BroadcastsInDim S16x2048x1 (![0, 1, 2] : Fin 3 → Fin S16x2048x1.rank)
  reducesTo_S16x2048x1_S16x2048_d2 : S16x2048x1.ReducesTo [2] S16x2048
  h_S_ : 0 < S_.numel
  bcast_S16x2048_S16x2048x1024_0_1 : S16x2048.BroadcastsInDim S16x2048x1024 (![0, 1] : Fin 2 → Fin S16x2048x1024.rank)
  bcast_S_S16x2048x1024 : S_.BroadcastsInDim S16x2048x1024 (![] : Fin 0 → Fin S16x2048x1024.rank)
  bcast_S16x2048x1_S16x2048x1024_0_1_2 : S16x2048x1.BroadcastsInDim S16x2048x1024 (![0, 1, 2] : Fin 3 → Fin S16x2048x1024.rank)
  bcast_S74_S1x1x74_2 : S74.BroadcastsInDim S1x1x74 (![2] : Fin 1 → Fin S1x1x74.rank)
  bcast_S1x1x74_S16x2048x74_0_1_2 : S1x1x74.BroadcastsInDim S16x2048x74 (![0, 1, 2] : Fin 3 → Fin S16x2048x74.rank)
  gather_S16x2048x1024_S16x2048x1_S16x2048x1024_2_1_0_0_1_2_111024_wf : GatherDims.WF S16x2048x1024 S16x2048x1 S16x2048x1024 [2] [1] [0] [1] [0] 2 ![1, 1, 1024]
  dot_S16x2048x1024_S1024x74_S16x2048x74_2_0_01_1_n_n_wf : DotDims.WF S16x2048x1024 S1024x74 S16x2048x74 [2] [0] [0, 1] [1] [] []

variable [Facts₀]

def gather_S16x2048x1024_S16x2048x1_S16x2048x1024_2_1_0_0_1_2_111024 : GatherDims S16x2048x1024 S16x2048x1 S16x2048x1024 where
  offsetDims := [2]
  collapsedSliceDims := [1]
  operandBatchingDims := [0]
  startIndicesBatchingDims := [0]
  startIndexMap := [1]
  indexVectorDim := 2
  sliceSizes := ![1, 1, 1024]
  wf := gather_S16x2048x1024_S16x2048x1_S16x2048x1024_2_1_0_0_1_2_111024_wf
def dot_S16x2048x1024_S1024x74_S16x2048x74_2_0_01_1_n_n : DotDims S16x2048x1024 S1024x74 S16x2048x74 where
  lhsContracting := [2]
  rhsContracting := [0]
  lhsNonContracting := [0, 1]
  rhsNonContracting := [1]
  lhsBatch := []
  rhsBatch := []
  wf := dot_S16x2048x1024_S1024x74_S16x2048x74_2_0_01_1_n_n_wf

class Facts : Prop extends Facts₀ where

variable [Facts]
-- ==== Proof.Spec.lean ====
/-
  The mathematics of the tagging logits, with no program in sight.

  Per character position (b, t) a rate r is chosen by a bit (the head rate on the first character of a word, the mid rate
  elsewhere); the feature row is the word row g scaled by r plus the character row c scaled by 1 - r, and it is zero at
  an invalid position; the logits are the feature row times the projection matrix, plus the bias.

  One program zeroes invalid rows by a select on the validity bit after mixing; the other multiplies both scales by the
  validity bit read as the number 0 or 1 before mixing. On the extended reals the two agree at EVERY g and c, infinite or
  not: a product with 1 is the factor itself, and a product with 0 is 0 whatever the other factor (0 · ±∞ = 0 there), so
  no finiteness of the inputs is used.
-/
import Idealize.ShloMosaic.PureOps.Ideal
import Idealize.ShloMosaic.PureOps.Ideal.Laws
import Idealize.ShloMosaic.Lib.ValueIdx

noncomputable section

open scoped BigOperators

namespace Cert.Tagging

open Idealize.ShloMosaic Idealize.ShloMosaic.ValueIdx

/-- The rate of a character position: the head rate where the bit is set, the mid rate elsewhere (both as the
    extended reals their f32 words denote; the words are never evaluated). -/
def rate (h : BitVec 1) : EReal :=
  Scalar.select h (Ideal.ofBits .f32 0x3F6147AE#32) (Ideal.ofBits .f32 0x3F333333#32)

/-- The complementary rate, one minus the rate. -/
def corate (h : BitVec 1) : EReal := Ideal.ofBits .f32 0x3F800000#32 - rate h

/-- One feature entry, masked AFTER mixing: g·r + c·(1 - r) at a valid position, the zero word's value elsewhere. -/
def mixThenMask (h v : BitVec 1) (g c : EReal) : EReal :=
  Scalar.select v (g * rate h + c * corate h) (Ideal.ofBits .f32 0x00000000#32)

/-- One feature entry, masked BEFORE mixing: both scales are multiplied by the validity bit read as a number. -/
def maskThenMix (h v : BitVec 1) (g c : EReal) : EReal :=
  g * (rate h * ((v.toNat : ℝ) : EReal)) + c * (corate h * ((v.toNat : ℝ) : EReal))

/-- The two maskings agree on all extended reals: at a set bit the factor is 1, at a clear bit every product is 0. -/
theorem maskThenMix_eq (h v : BitVec 1) (g c : EReal) : maskThenMix h v g c = mixThenMask h v g c := by
  unfold maskThenMix mixThenMask
  rcases BitVec.eq_zero_or_eq_one v with rfl | rfl
  · rw [select_zero, Ideal.ofBits_zero_f32]
    have e : (((0#1 : BitVec 1).toNat : ℝ) : EReal) = 0 := by simp
    rw [e, mul_zero, mul_zero, mul_zero, mul_zero, add_zero]
  · rw [select_one]
    have e : (((1#1 : BitVec 1).toNat : ℝ) : EReal) = 1 := by simp
    rw [e, mul_one, mul_one]

/-- The logit of tag n at position (b, t): the feature row (masked after mixing) against column n of the projection,
    plus the bias of tag n. The word rows g, the character rows c, the two bit arrays, the projection W and the bias are
    whole arrays read at coordinates. -/
def logit (g c : (⟨3, ![16, 2048, 1024]⟩ : Shape).Idx → EReal) (hd vl : (⟨2, ![16, 2048]⟩ : Shape).Idx → BitVec 1)
    (W : (⟨2, ![1024, 74]⟩ : Shape).Idx → EReal) (bias : (⟨1, ![74]⟩ : Shape).Idx → EReal)
    (b : Fin 16) (t : Fin 2048) (n : Fin 74) : EReal :=
  (∑ k : Fin 1024, mixThenMask (hd (ix2 b t)) (vl (ix2 b t)) (g (ix3 b t k)) (c (ix3 b t k)) * W (ix2 k n)) + bias (ix1 n)

/-- The whole logits array, index by index. -/
def logits (g c : (⟨3, ![16, 2048, 1024]⟩ : Shape).Idx → EReal) (hd vl : (⟨2, ![16, 2048]⟩ : Shape).Idx → BitVec 1)
    (W : (⟨2, ![1024, 74]⟩ : Shape).Idx → EReal) (bias : (⟨1, ![74]⟩ : Shape).Idx → EReal) :
    (⟨3, ![16, 2048, 74]⟩ : Shape).Idx → EReal :=
  fun i => logit g c hd vl W bias (i 0) (i 1) (i 2)

theorem logits_ix3 (g c : (⟨3, ![16, 2048, 1024]⟩ : Shape).Idx → EReal) (hd vl : (⟨2, ![16, 2048]⟩ : Shape).Idx → BitVec 1)
    (W : (⟨2, ![1024, 74]⟩ : Shape).Idx → EReal) (bias : (⟨1, ![74]⟩ : Shape).Idx → EReal)
    (b : Fin 16) (t : Fin 2048) (n : Fin 74) : logits g c hd vl W bias (ix3 b t n) = logit g c hd vl W bias b t n := rfl

end Cert.Tagging

end
-- ==== Proof.RefValue.lean ====
/-
  The reference's result array is the tagging logits (Spec.lean) of its arguments, index by index.

  Read one operation at a time, the reference's last stage at (b, t, n) is the bias of tag n added to the sum over k of
  the masked feature at (b, t, k) times the projection at (k, n); the masked feature is a select on the validity bit at
  (b, t) between g·r + c·(1 - r) and the zero word, g the gathered word row (kept as ONE opaque array: both programs
  apply the same gather), c the character row, r the rate chosen by the head bit at (b, t). Every layout operation on the
  way (the keepdims broadcasts of the rate, of its complement, of the validity bit and of the bias) reads its operand at
  the same (b, t), which the index equations below say.
-/
import proofs.«160621_j61564061220928_1_alg».proof.Proof.RefRead
import proofs.«160621_j61564061220928_1_alg».proof.Proof.Spec

noncomputable section

open scoped BigOperators

namespace Cert.ReferenceIdeal.RefValue

open Cert.ReferenceIdeal Cert.ReferenceIdeal.ReadP Idealize.ShloMosaic Idealize.ShloMosaic.ValueIdx Cert.Tagging

/-- The bias reaches (b, t, n) through two broadcasts from coordinate n. -/
theorem bias_idx (b : Fin 16) (t : Fin 2048) (n : Fin 74) : idx_main_v16 (idx_main_v17 (ix3 b t n)) = ix1 n :=
  funext fun a => Fin.ext (by match a with | ⟨0, _⟩ => rfl)

/-- The contraction reads the feature at (b, t, k) … -/
theorem lhs_idx (b : Fin 16) (t : Fin 2048) (n : Fin 74) (k : Fin 1024) : lidx_main_v15 (ix3 b t n) k = ix3 b t k :=
  funext fun a => Fin.ext (by match a with | ⟨0, _⟩ => rfl | ⟨1, _⟩ => rfl | ⟨2, _⟩ => rfl)

/-- … and the projection at (k, n). -/
theorem rhs_idx (b : Fin 16) (t : Fin 2048) (n : Fin 74) (k : Fin 1024) : ridx_main_v15 (ix3 b t n) k = ix2 k n :=
  funext fun a => Fin.ext (by match a with | ⟨0, _⟩ => rfl | ⟨1, _⟩ => rfl)

/-- The validity bit reaches (b, t, k) from (b, t). -/
theorem valid_idx (b : Fin 16) (t : Fin 2048) (k : Fin 1024) : idx_main_v13 (idx_main_call2_v1 (ix3 b t k)) = ix2 b t :=
  funext fun a => Fin.ext (by match a with | ⟨0, _⟩ => rfl | ⟨1, _⟩ => rfl)

/-- The rate reaches (b, t, k) from (b, t). -/
theorem rate_idx (b : Fin 16) (t : Fin 2048) (k : Fin 1024) : idx_main_v4 (idx_main_v5 (ix3 b t k)) = ix2 b t :=
  funext fun a => Fin.ext (by match a with | ⟨0, _⟩ => rfl | ⟨1, _⟩ => rfl)

/-- The complementary rate reaches (b, t, k) from (b, t). -/
theorem corate_idx (b : Fin 16) (t : Fin 2048) (k : Fin 1024) : idx_main_v9 (idx_main_v10 (ix3 b t k)) = ix2 b t :=
  funext fun a => Fin.ext (by match a with | ⟨0, _⟩ => rfl | ⟨1, _⟩ => rfl)

/-- The masked feature stage at (b, t, k) is the specification's entry, masked after mixing. -/
theorem feature_apply (x0 x1 : (⟨S16x2048x1024, .f32⟩ : BufTy).Contents (Elt Ideal)) (x2 : (⟨S16x2048, .i32⟩ : BufTy).Contents (Elt Ideal))
    (x3 x4 : (⟨S16x2048, .i1⟩ : BufTy).Contents (Elt Ideal)) (b : Fin 16) (t : Fin 2048) (k : Fin 1024) :
    val_main_v14 (F := Ideal) x0 x1 x2 x3 x4 (ix3 b t k)
      = mixThenMask (x3 (ix2 b t)) (x4 (ix2 b t)) (val_main_v3 (F := Ideal) x1 x2 (ix3 b t k)) (x0 (ix3 b t k)) := by
  rw [val_main_v14_apply, val_main_call2_v1_apply, val_main_v13_apply, valid_idx, val_main_call2_v2_apply, val_main_call2_v0_apply,
    val_main_cst_2_apply, val_main_v12_apply, val_main_v6_apply, val_main_v5_apply, val_main_v4_apply, rate_idx, val_main_v1_apply,
    val_main_v0_apply, val_main_call0_v0_apply, val_main_call0_v1_apply, val_main_cst_apply, val_main_cst_0_apply,
    val_main_v11_apply, val_main_v10_apply, val_main_v9_apply, corate_idx, val_main_v8_apply, val_main_v7_apply, val_main_cst_1_apply,
    val_main_v1_apply, val_main_v0_apply, val_main_call0_v0_apply, val_main_call0_v1_apply, val_main_cst_apply, val_main_cst_0_apply]
  rfl

/-- THE REFERENCE IS THE SPECIFICATION: its last stage, as a function of the arguments, is the logits array of the
    gathered word rows, the character rows, the two bit arrays, the projection and the bias. -/
theorem result_eq (x0 x1 : (⟨S16x2048x1024, .f32⟩ : BufTy).Contents (Elt Ideal)) (x2 : (⟨S16x2048, .i32⟩ : BufTy).Contents (Elt Ideal))
    (x3 x4 : (⟨S16x2048, .i1⟩ : BufTy).Contents (Elt Ideal)) (x5 : (⟨S1024x74, .f32⟩ : BufTy).Contents (Elt Ideal))
    (x6 : (⟨S74, .f32⟩ : BufTy).Contents (Elt Ideal)) :
    val_main_v18 (F := Ideal) x0 x1 x2 x3 x4 x5 x6 = logits (val_main_v3 (F := Ideal) x1 x2) x0 x3 x4 x5 x6 := by
  funext i
  obtain ⟨b, t, n, rfl⟩ : ∃ (b : Fin 16) (t : Fin 2048) (n : Fin 74), i = ix3 b t n := ⟨i 0, i 1, i 2, eq_ix3 i⟩
  rw [logits_ix3, val_main_v18_apply, val_main_v15_apply, val_main_v17_apply, val_main_v16_apply, bias_idx]
  unfold logit
  refine congrArg₂ (· + ·) (Finset.sum_congr rfl fun k _ => ?_) rfl
  rw [lhs_idx, rhs_idx, feature_apply]

end Cert.ReferenceIdeal.RefValue

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.Payload.lean ====
/-
  The kernel body's one stored value, read at an index.

  At row r and tag n of a block the body stores the bias of tag n added to the sum over k of the mixed feature at (r, k)
  times the projection at (k, n), where the mixed feature is the word row at (r, k) times the word scale of row r plus
  the character row at (r, k) times the character scale of row r. The two narrowings to bf16 on the way into the matrix
  unit are the identity on extended reals; the matrix unit's product into a zero block is the plain sum over the one
  contracted axis; the block's leading unit axis is cast away on the way in and back on the way out; each per-row scale is
  a column broadcast along the lanes and the bias a row broadcast down the rows.
-/
import proofs.«160621_j61564061220928_1_alg».proof.Proof.Gen.KernelIdeal.Skeleton
import proofs.«160621_j61564061220928_1_alg».proof.Proof.LibColumnBroadcast
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.ColumnBroadcast

/-- The left operand of the product is read on its row axis at the output's row, -/
theorem lhs_row (i : S512x74.Idx) (q : dot_S512x1024_S1024x74_S512x74_1_0_0_1_n_n.contr.Idx) : (dot_S512x1024_S1024x74_S512x74_1_0_0_1_n_n.lhsIdx i q 0).val = (i 0).val := by
  unfold DotDims.lhsIdx
  rw [dif_neg (show ¬(0 : Fin S512x1024.rank) ∈ dot_S512x1024_S1024x74_S512x74_1_0_0_1_n_n.lhsBatch by decide), dif_pos (show (0 : Fin S512x1024.rank) ∈ dot_S512x1024_S1024x74_S512x74_1_0_0_1_n_n.lhsNonContracting by decide)]
  rfl

/-- and the right operand on its column axis at the output's column. -/
theorem rhs_col (i : S512x74.Idx) (q : dot_S512x1024_S1024x74_S512x74_1_0_0_1_n_n.contr.Idx) : (dot_S512x1024_S1024x74_S512x74_1_0_0_1_n_n.rhsIdx i q 1).val = (i 1).val := by
  unfold DotDims.rhsIdx
  rw [dif_neg (show ¬(1 : Fin S1024x74.rank) ∈ dot_S512x1024_S1024x74_S512x74_1_0_0_1_n_n.rhsBatch by decide), dif_pos (show (1 : Fin S1024x74.rank) ∈ dot_S512x1024_S1024x74_S512x74_1_0_0_1_n_n.rhsNonContracting by decide)]
  rfl

/-- The matrix unit's [512, 1024] · [1024, 74] product into a zero block, at (r, n): the sum over the contracted axis. -/
theorem matmul_zero_apply (a : FVec Ideal S512x1024 .bf16) (w : FVec Ideal S1024x74 .bf16) (r : Fin 512) (n : Fin 74) :
    matmul dot_S512x1024_S1024x74_S512x74_1_0_0_1_n_n none a w (constant (F := Ideal) S512x74 .f32 0x00000000#32) (ix2 r n) = ∑ k : Fin 1024, a (ix2 r k) * w (ix2 k n) := by
  simp only [matmul]
  rw [Ideal.matmul_constant_zero_apply, ← Equiv.sum_comp (contrEquiv1 dot_S512x1024_S1024x74_S512x74_1_0_0_1_n_n 1024 rfl rfl).symm]
  refine Finset.sum_congr rfl fun k _ => ?_
  have hk := contrEquiv1_symm_val dot_S512x1024_S1024x74_S512x74_1_0_0_1_n_n 1024 rfl rfl k
  have el : dot_S512x1024_S1024x74_S512x74_1_0_0_1_n_n.lhsIdx (ix2 r n) ((contrEquiv1 dot_S512x1024_S1024x74_S512x74_1_0_0_1_n_n 1024 rfl rfl).symm k) = ix2 r k := funext fun ax => Fin.ext (by
    match ax with
    | ⟨0, _⟩ => exact lhs_row _ _
    | ⟨1, _⟩ => exact (dot_S512x1024_S1024x74_S512x74_1_0_0_1_n_n.lhsIdx_val_of_single rfl _ _).trans hk)
  have er : dot_S512x1024_S1024x74_S512x74_1_0_0_1_n_n.rhsIdx (ix2 r n) ((contrEquiv1 dot_S512x1024_S1024x74_S512x74_1_0_0_1_n_n 1024 rfl rfl).symm k) = ix2 k n := funext fun ax => Fin.ext (by
    match ax with
    | ⟨0, _⟩ => exact (dot_S512x1024_S1024x74_S512x74_1_0_0_1_n_n.rhsIdx_val_of_single rfl _ _).trans hk
    | ⟨1, _⟩ => exact rhs_col _ _)
  rw [el, er]

/-- THE STORED VALUE AT AN INDEX: with g the word block, c the character block, sw and sc the two scale columns, w the
    projection and bias the bias vector, the body stores at (·, r, n)
    `(∑ k, (g (0, r, k) · sw (0, r, 0) + c (0, r, k) · sc (0, r, 0)) · w (k, n)) + bias n`. -/
theorem pay_apply (g c : Vec Ideal S1x512x1024 .f32) (sw sc : Vec Ideal S1x512x1 .f32) (w : Vec Ideal S1024x74 .f32)
    (bias : Vec Ideal S74 .f32) (z : Fin 1) (r : Fin 512) (n : Fin 74) :
    k0_pay1 g c sw sc w bias (ix3 z r n)
      = (∑ k : Fin 1024, (g (ix3 (0 : Fin 1) r k) * sw (ix3 (0 : Fin 1) r (0 : Fin 1))
            + c (ix3 (0 : Fin 1) r k) * sc (ix3 (0 : Fin 1) r (0 : Fin 1))) * w (ix2 k n)) + bias (ix1 n) := by
  unfold k0_pay1
  refine (shapeCast_ab_1ab_apply _ _ z r n).trans ?_
  refine congrArg₂ (fun u v : EReal => u + v) ?_ ?_
  · refine (matmul_zero_apply _ _ r n).trans (Finset.sum_congr rfl fun k _ => ?_)
    refine congrArg₂ (fun u v : EReal => u * v) ?_ rfl
    refine congrArg₂ (fun u v : EReal => u + v) (congrArg₂ (fun u v : EReal => u * v) ?_ ?_) (congrArg₂ (fun u v : EReal => u * v) ?_ ?_)
    · exact shapeCast_1ab_ab_apply _ _ r k
    · exact (broadcastTo_a1_ab_apply _ _ r k).trans (shapeCast_1ab_ab_apply _ _ r (0 : Fin 1))
    · exact shapeCast_1ab_ab_apply _ _ r k
    · exact (broadcastTo_a1_ab_apply _ _ r k).trans (shapeCast_1ab_ab_apply _ _ r (0 : Fin 1))
  · exact (broadcastTo_1b_ab_apply _ _ r n).trans (shapeCast_a_1a_apply _ _ (0 : Fin 1) n)

end Cert.KernelIdeal.Payload

end
-- ==== Proof.Block.lean ====
/-
  One stored block against the specification, with every array a variable.

  If the word block and the character block are rows t of batch b of two whole arrays, the two scale columns are the rate
  and the complementary rate of (b, t) times the validity bit of (b, t) read as a number, and the projection and the
  bias are the whole arrays, then the body's stored value at row r and tag n is the tagging logit at (b, t, n): the
  masking before mixing that the block computes is the masking after mixing of the specification (Spec.lean).
-/
import proofs.«160621_j61564061220928_1_alg».proof.Proof.Payload
import proofs.«160621_j61564061220928_1_alg».proof.Proof.Spec

noncomputable section

open scoped BigOperators

namespace Cert.KernelIdeal.Block

open Cert.KernelIdeal Cert.KernelIdeal.Gen Idealize.ShloMosaic Idealize.ShloMosaic.ValueIdx Cert.Tagging

/-- The stored value at (·, r, n) is the logit at (b, t, n). -/
theorem block_apply (g c : Vec Ideal S1x512x1024 .f32) (sw sc : Vec Ideal S1x512x1 .f32) (w : Vec Ideal S1024x74 .f32)
    (bias : Vec Ideal S74 .f32)
    (G C : (⟨3, ![16, 2048, 1024]⟩ : Shape).Idx → EReal) (hd vl : (⟨2, ![16, 2048]⟩ : Shape).Idx → BitVec 1)
    (W : (⟨2, ![1024, 74]⟩ : Shape).Idx → EReal) (B : (⟨1, ![74]⟩ : Shape).Idx → EReal)
    (b : Fin 16) (t : Fin 2048) (z : Fin 1) (r : Fin 512) (n : Fin 74)
    (hg : ∀ k : Fin 1024, g (ix3 (0 : Fin 1) r k) = G (ix3 b t k))
    (hc : ∀ k : Fin 1024, c (ix3 (0 : Fin 1) r k) = C (ix3 b t k))
    (hsw : sw (ix3 (0 : Fin 1) r (0 : Fin 1)) = rate (hd (ix2 b t)) * (((vl (ix2 b t)).toNat : ℝ) : EReal))
    (hsc : sc (ix3 (0 : Fin 1) r (0 : Fin 1)) = corate (hd (ix2 b t)) * (((vl (ix2 b t)).toNat : ℝ) : EReal))
    (hw : ∀ k : Fin 1024, w (ix2 k n) = W (ix2 k n)) (hb : bias (ix1 n) = B (ix1 n)) :
    k0_pay1 g c sw sc w bias (ix3 z r n) = logit G C hd vl W B b t n := by
  rw [Payload.pay_apply]
  unfold logit
  refine congrArg₂ (fun u v : EReal => u + v) (Finset.sum_congr rfl fun k _ => ?_) hb
  rw [hg, hc, hsw, hsc, hw, ← maskThenMix_eq]
  rfl

end Cert.KernelIdeal.Block

end
-- ==== Proof.HostSide.lean ====
/-
  What the region finds in the three arrays the host computes before it.

  Before the kernel is launched the host builds, from the arguments, the gathered word rows (row word_idx[b, t] of the word
  array for every position (b, t), through jnp's wrap of negative indices and its fill of out-of-range ones), the word
  scale (the rate times the validity bit read as a number, with a trailing unit axis) and the character scale (one minus
  the rate, times the same number). Each is read off the fold of the host operations as one term of the argument arrays.
  The gathered rows are kept as ONE array, the same operations the reference applies to the same two arguments.
-/
import proofs.«160621_j61564061220928_1_alg».proof.Proof.Gen.KernelIdeal.Frame
import proofs.«160621_j61564061220928_1_alg».proof.Proof.RefRead
import proofs.«160621_j61564061220928_1_alg».proof.Proof.Spec
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The rate array: the head rate where the head bit is set, the mid rate elsewhere. -/
def rateArr (hd : IVec S16x2048 1) : FVec Ideal S16x2048 .f32 :=
  id (select hd (broadcastInDim S16x2048 ![] bcast_S_S16x2048 (constant (F := Ideal) S_ .f32 0x3F6147AE#32))
    (broadcastInDim S16x2048 ![] bcast_S_S16x2048 (constant (F := Ideal) S_ .f32 0x3F333333#32)))

/-- The word scale as the region finds it: rate times validity, a trailing unit axis added. -/
theorem V_wordScale (c : Dev nD) :
    (V m c main_v4 : S16x2048x1.Idx → EReal)
      = broadcastInDim S16x2048x1 ![0, 1] bcast_S16x2048_S16x2048x1_0_1
          (mulf (rateArr (m ((c : Thread nD τ).loc main_arg3))) (uitofp (F := Ideal) .f32 (m ((c : Thread nD τ).loc main_arg4)))) := by
  dsimp only [Gen.V]
  simp only [Gen.hostOps0, Gen.hostOps0_1, Gen.hostOps0_2, Gen.hostOps0_3, List.flatten_cons, List.flatten_nil, List.append_nil,
    List.cons_append, List.nil_append]
  after_results_simp
  rfl

/-- The character scale as the region finds it: one minus the rate, times validity, a trailing unit axis added. -/
theorem V_charScale (c : Dev nD) :
    (V m c main_v8 : S16x2048x1.Idx → EReal)
      = broadcastInDim S16x2048x1 ![0, 1] bcast_S16x2048_S16x2048x1_0_1
          (mulf (subf (broadcastInDim S16x2048 ![] bcast_S_S16x2048 (constant (F := Ideal) S_ .f32 0x3F800000#32))
              (rateArr (m ((c : Thread nD τ).loc main_arg3))))
            (uitofp (F := Ideal) .f32 (m ((c : Thread nD τ).loc main_arg4)))) := by
  dsimp only [Gen.V]
  simp only [Gen.hostOps0, Gen.hostOps0_1, Gen.hostOps0_2, Gen.hostOps0_3, List.flatten_cons, List.flatten_nil, List.append_nil,
    List.cons_append, List.nil_append]
  after_results_simp
  rfl

/-- The trailing unit axis of a scale reads position (b, t). -/
theorem keepdims_idx (b : Fin 16) (t : Fin 2048) (z : Fin 1) (a : Fin S16x2048.rank) :
    ((ix2 b t : S16x2048.Idx) a).val = if S16x2048.size a = 1 then 0 else ((ix3 b t z : S16x2048x1.Idx) ((![0, 1] : Fin 2 → Fin S16x2048x1.rank) a)).val := by
  match a with
  | ⟨0, _⟩ => show b.val = if (16 : Nat) = 1 then 0 else b.val; rw [if_neg (by decide)]
  | ⟨1, _⟩ => show t.val = if (2048 : Nat) = 1 then 0 else t.val; rw [if_neg (by decide)]

/-- The word scale at (b, t, ·): the rate of (b, t) times the validity bit of (b, t) read as a number. -/
theorem wordScale_apply (c : Dev nD) (b : Fin 16) (t : Fin 2048) (z : Fin 1) :
    (V m c main_v4 : S16x2048x1.Idx → EReal) (ix3 b t z)
      = Cert.Tagging.rate ((m ((c : Thread nD τ).loc main_arg3) : IVec S16x2048 1) (ix2 b t))
          * ((((m ((c : Thread nD τ).loc main_arg4) : IVec S16x2048 1) (ix2 b t)).toNat : ℝ) : EReal) := by
  rw [V_wordScale]
  exact (broadcastInDim_apply _ bcast_S16x2048_S16x2048x1_0_1 _ (ix3 b t z) (ix2 b t) (keepdims_idx b t z)).trans rfl

/-- The character scale at (b, t, ·): one minus the rate of (b, t), times the validity bit of (b, t) read as a number. -/
theorem charScale_apply (c : Dev nD) (b : Fin 16) (t : Fin 2048) (z : Fin 1) :
    (V m c main_v8 : S16x2048x1.Idx → EReal) (ix3 b t z)
      = Cert.Tagging.corate ((m ((c : Thread nD τ).loc main_arg3) : IVec S16x2048 1) (ix2 b t))
          * ((((m ((c : Thread nD τ).loc main_arg4) : IVec S16x2048 1) (ix2 b t)).toNat : ℝ) : EReal) := by
  rw [V_charScale]
  exact (broadcastInDim_apply _ bcast_S16x2048_S16x2048x1_0_1 _ (ix3 b t z) (ix2 b t) (keepdims_idx b t z)).trans rfl

set_option maxRecDepth 65536 in
/-- The gathered word rows as the region finds them: the reference's own gather stage of the same two arguments. -/
theorem V_gathered (c : Dev nD) :
    (V m c main_v10 : S16x2048x1024.Idx → EReal)
      = Cert.ReferenceIdeal.ReadP.val_main_v3 (F := Ideal) (m ((c : Thread nD τ).loc main_arg1)) (m ((c : Thread nD τ).loc main_arg2)) := by
  dsimp only [Gen.V]
  simp only [Gen.hostOps0, Gen.hostOps0_1, Gen.hostOps0_2, Gen.hostOps0_3, List.flatten_cons, List.flatten_nil, List.append_nil,
    List.cons_append, List.nil_append]
  after_results_simp
  rfl

end Cert.KernelIdeal.HostSide

end
-- ==== Proof.KernelValue.lean ====
/-
  The kernel's result array is the tagging logits of the arguments.

  Grid point t works on batch t / 4 and rows 512 · (t % 4) … 512 · (t % 4) + 511: the four row-blocked inputs (gathered word
  rows, character rows, the two scale columns) and the output move together over the grid, the projection and the bias
  are staged whole. So what point t writes back is the block, at that batch and those rows, of ONE array — the logits of
  the gathered word rows, the character rows, the head and validity bits, the projection and the bias (Spec.lean) — and
  the 64 blocks tile the result array.
-/
import proofs.«160621_j61564061220928_1_alg».proof.Proof.Gen.KernelIdeal.Value
import proofs.«160621_j61564061220928_1_alg».proof.Proof.Block
import proofs.«160621_j61564061220928_1_alg».proof.Proof.HostSide

noncomputable section

open scoped BigOperators

namespace Cert.KernelIdeal.Logits

open Cert.KernelIdeal Cert.KernelIdeal.Gen Idealize.ShloMosaic Idealize.ShloMosaic.TcCoe Idealize.SL.Sem
open Idealize.ShloMosaic.Pipeline (Dat)
open Idealize.ShloMosaic.ValueIdx Cert.Tagging

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The logits of the arrays the region finds and the arguments: what the result array ends holding. -/
def result (c : Dev nD) : S16x2048x74.Idx → EReal :=
  logits (V m c main_v10 : S16x2048x1024.Idx → EReal) (m ((c : Thread nD τ).loc main_arg0))
    (m ((c : Thread nD τ).loc main_arg3)) (m ((c : Thread nD τ).loc main_arg4))
    (m ((c : Thread nD τ).loc main_arg5)) (m ((c : Thread nD τ).loc main_arg6))

/-- The index maps over the grid: the four row-blocked inputs sit at the output's batch and row block, on their last
    axis at block 0; the projection and the bias at block 0; the output's batch is below 16 and its row block below 4. -/
theorem idx_facts : ∀ t : Fin cfg0.N,
    win0_0.index t 0 = win0_6.index t 0 ∧ win0_0.index t 1 = win0_6.index t 1 ∧ win0_0.index t 2 = 0
    ∧ win0_1.index t 0 = win0_6.index t 0 ∧ win0_1.index t 1 = win0_6.index t 1 ∧ win0_1.index t 2 = 0
    ∧ win0_2.index t 0 = win0_6.index t 0 ∧ win0_2.index t 1 = win0_6.index t 1 ∧ win0_2.index t 2 = 0
    ∧ win0_3.index t 0 = win0_6.index t 0 ∧ win0_3.index t 1 = win0_6.index t 1 ∧ win0_3.index t 2 = 0
    ∧ win0_4.index t 0 = 0 ∧ win0_4.index t 1 = 0 ∧ win0_5.index t 0 = 0
    ∧ win0_6.index t 0 < 16 ∧ win0_6.index t 1 < 4 ∧ win0_6.index t 2 = 0 :=
  (by decide +kernel : ∀ t : Fin grid0.N, _)

/-- Every (batch, row block) pair is some grid point's. -/
theorem idx_onto : ∀ (q0 : Fin 16) (q1 : Fin 4), ∃ t : Fin cfg0.N, win0_6.index t = ![q0.val, q1.val, 0] :=
  (by decide +kernel : ∀ (q0 : Fin 16) (q1 : Fin 4), ∃ t : Fin grid0.N, win0_6.index t = ![q0.val, q1.val, 0])

/-- The gathered word block at point t, row r: rows of batch b = the point's batch, position tt = 512 · (row block) + r. -/
theorem word_blk (c : Dev nD) (t : Fin cfg0.N) (r : Fin 512) (k : Fin 1024) (b : Fin 16) (tt : Fin 2048)
    (hb : b.val = win0_6.index t 0) (ht : tt.val = win0_6.index t 1 * 512 + r.val) :
    (iblk m c 0 t : Vec Ideal S1x512x1024 .f32) (ix3 (0 : Fin 1) r k) = (V m c main_v10 : S16x2048x1024.Idx → EReal) (ix3 b tt k) := by
  obtain ⟨a0, a1, a2, -⟩ := idx_facts t
  show (V m c main_v10 : S16x2048x1024.Idx → EReal) (((cfg0.win 0).blk t).view.emb (ix3 (0 : Fin 1) r k)) = _
  refine congrArg (V m c main_v10 : S16x2048x1024.Idx → EReal) (funext fun a => Fin.ext ?_)
  match a with
  | ⟨0, _⟩ => show win0_0.index t 0 * 1 + 1 * 0 = b.val; omega
  | ⟨1, _⟩ => show win0_0.index t 1 * 512 + 1 * r.val = tt.val; omega
  | ⟨2, _⟩ => show win0_0.index t 2 * 1024 + 1 * k.val = k.val; omega

/-- The character block at point t, row r, likewise, of the character argument as launched. -/
theorem char_blk (c : Dev nD) (t : Fin cfg0.N) (r : Fin 512) (k : Fin 1024) (b : Fin 16) (tt : Fin 2048)
    (hb : b.val = win0_6.index t 0) (ht : tt.val = win0_6.index t 1 * 512 + r.val) :
    (iblk m c 1 t : Vec Ideal S1x512x1024 .f32) (ix3 (0 : Fin 1) r k)
      = (m ((c : Thread nD τ).loc main_arg0) : S16x2048x1024.Idx → EReal) (ix3 b tt k) := by
  obtain ⟨-, -, -, a0, a1, a2, -⟩ := idx_facts t
  rw [← V_main_arg0 m c]
  show (V m c main_arg0 : S16x2048x1024.Idx → EReal) (((cfg0.win 1).blk t).view.emb (ix3 (0 : Fin 1) r k)) = _
  refine congrArg (V m c main_arg0 : S16x2048x1024.Idx → EReal) (funext fun a => Fin.ext ?_)
  match a with
  | ⟨0, _⟩ => show win0_1.index t 0 * 1 + 1 * 0 = b.val; omega
  | ⟨1, _⟩ => show win0_1.index t 1 * 512 + 1 * r.val = tt.val; omega
  | ⟨2, _⟩ => show win0_1.index t 2 * 1024 + 1 * k.val = k.val; omega

/-- The word-scale column at point t, row r: the word scale at (b, tt, 0). -/
theorem wordScale_blk (c : Dev nD) (t : Fin cfg0.N) (r : Fin 512) (b : Fin 16) (tt : Fin 2048)
    (hb : b.val = win0_6.index t 0) (ht : tt.val = win0_6.index t 1 * 512 + r.val) :
    (iblk m c 2 t : Vec Ideal S1x512x1 .f32) (ix3 (0 : Fin 1) r (0 : Fin 1)) = (V m c main_v4 : S16x2048x1.Idx → EReal) (ix3 b tt (0 : Fin 1)) := by
  obtain ⟨-, -, -, -, -, -, a0, a1, a2, -⟩ := idx_facts t
  show (V m c main_v4 : S16x2048x1.Idx → EReal) (((cfg0.win 2).blk t).view.emb (ix3 (0 : Fin 1) r (0 : Fin 1))) = _
  refine congrArg (V m c main_v4 : S16x2048x1.Idx → EReal) (funext fun a => Fin.ext ?_)
  match a with
  | ⟨0, _⟩ => show win0_2.index t 0 * 1 + 1 * 0 = b.val; omega
  | ⟨1, _⟩ => show win0_2.index t 1 * 512 + 1 * r.val = tt.val; omega
  | ⟨2, _⟩ => show win0_2.index t 2 * 1 + 1 * 0 = 0; omega

/-- The character-scale column at point t, row r: the character scale at (b, tt, 0). -/
theorem charScale_blk (c : Dev nD) (t : Fin cfg0.N) (r : Fin 512) (b : Fin 16) (tt : Fin 2048)
    (hb : b.val = win0_6.index t 0) (ht : tt.val = win0_6.index t 1 * 512 + r.val) :
    (iblk m c 3 t : Vec Ideal S1x512x1 .f32) (ix3 (0 : Fin 1) r (0 : Fin 1)) = (V m c main_v8 : S16x2048x1.Idx → EReal) (ix3 b tt (0 : Fin 1)) := by
  obtain ⟨-, -, -, -, -, -, -, -, -, a0, a1, a2, -⟩ := idx_facts t
  show (V m c main_v8 : S16x2048x1.Idx → EReal) (((cfg0.win 3).blk t).view.emb (ix3 (0 : Fin 1) r (0 : Fin 1))) = _
  refine congrArg (V m c main_v8 : S16x2048x1.Idx → EReal) (funext fun a => Fin.ext ?_)
  match a with
  | ⟨0, _⟩ => show win0_3.index t 0 * 1 + 1 * 0 = b.val; omega
  | ⟨1, _⟩ => show win0_3.index t 1 * 512 + 1 * r.val = tt.val; omega
  | ⟨2, _⟩ => show win0_3.index t 2 * 1 + 1 * 0 = 0; omega

/-- The projection block at every point is the whole projection argument as launched. -/
theorem proj_blk (c : Dev nD) (t : Fin cfg0.N) (k : Fin 1024) (n : Fin 74) :
    (iblk m c 4 t : Vec Ideal S1024x74 .f32) (ix2 k n) = (m ((c : Thread nD τ).loc main_arg5) : S1024x74.Idx → EReal) (ix2 k n) := by
  obtain ⟨-, -, -, -, -, -, -, -, -, -, -, -, a0, a1, -⟩ := idx_facts t
  rw [← V_main_arg5 m c]
  show (V m c main_arg5 : S1024x74.Idx → EReal) (((cfg0.win 4).blk t).view.emb (ix2 k n)) = _
  refine congrArg (V m c main_arg5 : S1024x74.Idx → EReal) (funext fun a => Fin.ext ?_)
  match a with
  | ⟨0, _⟩ => show win0_4.index t 0 * 1024 + 1 * k.val = k.val; omega
  | ⟨1, _⟩ => show win0_4.index t 1 * 74 + 1 * n.val = n.val; omega

/-- The bias block at every point is the whole bias argument as launched. -/
theorem bias_blk (c : Dev nD) (t : Fin cfg0.N) (n : Fin 74) :
    (iblk m c 5 t : Vec Ideal S74 .f32) (ix1 n) = (m ((c : Thread nD τ).loc main_arg6) : S74.Idx → EReal) (ix1 n) := by
  obtain ⟨-, -, -, -, -, -, -, -, -, -, -, -, -, -, a0, -⟩ := idx_facts t
  rw [← V_main_arg6 m c]
  show (V m c main_arg6 : S74.Idx → EReal) (((cfg0.win 5).blk t).view.emb (ix1 n)) = _
  refine congrArg (V m c main_arg6 : S74.Idx → EReal) (funext fun a => Fin.ext ?_)
  match a with
  | ⟨0, _⟩ => show win0_5.index t 0 * 74 + 1 * n.val = n.val; omega

/-- WHAT POINT t WRITES BACK is block t of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz3]
  simp only [View.ld_unit_zero (S := S1x512x1024) hz3, View.ld_unit_zero (S := S1x512x1) hz3, View.ld_unit_zero (S := S1024x74) hz2,
    View.ld_unit_zero (S := S74) hz1]
  show (k0_pay1 (iblk m c 0 t) (iblk m c 1 t) (iblk m c 2 t) (iblk m c 3 t) (iblk m c 4 t) (iblk m c 5 t) : S1x512x74.Idx → EReal)
      = fun y : S1x512x74.Idx => result m c (((cfg0.win 6).blk t).view.emb y)
  funext y
  obtain ⟨z, r, n, rfl⟩ : ∃ (z : Fin 1) (r : Fin 512) (n : Fin 74), y = ix3 z r n := ⟨y 0, y 1, y 2, eq_ix3 y⟩
  have l := idx_facts t
  have l0 : win0_6.index t 0 < 16 := l.2.2.2.2.2.2.2.2.2.2.2.2.2.2.2.1
  have l1 : win0_6.index t 1 < 4 := l.2.2.2.2.2.2.2.2.2.2.2.2.2.2.2.2.1
  have l2 : win0_6.index t 2 = 0 := l.2.2.2.2.2.2.2.2.2.2.2.2.2.2.2.2.2
  have hz : z.val = 0 := by omega
  have hr : r.val < 512 := r.isLt
  have hemb : (((cfg0.win 6).blk t).view.emb (ix3 z r n) : S16x2048x74.Idx)
      = ix3 (⟨win0_6.index t 0, l0⟩ : Fin 16) (⟨win0_6.index t 1 * 512 + r.val, by omega⟩ : Fin 2048) n := by
    funext a
    apply Fin.ext
    match a with
    | ⟨0, _⟩ => show win0_6.index t 0 * 1 + 1 * z.val = win0_6.index t 0; omega
    | ⟨1, _⟩ => show win0_6.index t 1 * 512 + 1 * r.val = win0_6.index t 1 * 512 + r.val; omega
    | ⟨2, _⟩ => show win0_6.index t 2 * 74 + 1 * n.val = n.val; omega
  rw [hemb]
  unfold result
  rw [logits_ix3]
  exact Block.block_apply _ _ _ _ _ _ _ _ _ _ _ _ _ _ z r n
    (fun k => word_blk m c t r k _ _ rfl rfl)
    (fun k => char_blk m c t r k _ _ rfl rfl)
    ((wordScale_blk m c t r _ _ rfl rfl).trans (HostSide.wordScale_apply m c _ _ _))
    ((charScale_blk m c t r _ _ rfl rfl).trans (HostSide.charScale_apply m c _ _ _))
    (fun k => proj_blk m c t k n)
    (bias_blk m c t n)

/-- An index of the result array is in point t's block iff each coordinate is in the block's range on its axis. -/
theorem mem_blk (t : Fin cfg0.N) (i : S16x2048x74.Idx) :
    i ∈ ((cfg0.win 6).blk t).view.set ↔ ∀ a : Fin 3, win0_6.index t a * S1x512x74.size a ≤ (i a).val
      ∧ (i a).val < win0_6.index t a * S1x512x74.size a + S1x512x74.size a := by
  show i ∈ ((View.whole main_v11).slice (win0_6.rect t)).set ↔ _
  rw [View.set_slice_whole, Rect.mem_set_unit]
  exact Iff.rfl

/-- The 64 blocks tile the result array: index (b, tt, n) is in the block of the point at batch b, row block tt / 512. -/
theorem cover (i : S16x2048x74.Idx) : ∃ t : Fin cfg0.N, (cfg0.win 6).flush t = true ∧ i ∈ ((cfg0.win 6).blk t).view.set := by
  have h0 : (i 0).val < 16 := (i 0).isLt
  have h1 : (i 1).val < 2048 := (i 1).isLt
  have h2 : (i 2).val < 74 := (i 2).isLt
  obtain ⟨t, ht⟩ := idx_onto ⟨(i 0).val, h0⟩ ⟨(i 1).val / 512, by omega⟩
  have q0 : win0_6.index t 0 = (i 0).val := congrFun ht 0
  have q1 : win0_6.index t 1 = (i 1).val / 512 := congrFun ht 1
  have q2 : win0_6.index t 2 = 0 := congrFun ht 2
  refine ⟨t, flush0_6 t, ?_⟩
  rw [mem_blk]
  intro a
  match a with
  | ⟨0, _⟩ => show win0_6.index t 0 * 1 ≤ (i 0).val ∧ (i 0).val < win0_6.index t 0 * 1 + 1; omega
  | ⟨1, _⟩ => show win0_6.index t 1 * 512 ≤ (i 1).val ∧ (i 1).val < win0_6.index t 1 * 512 + 512; omega
  | ⟨2, _⟩ => show win0_6.index t 2 * 74 ≤ (i 2).val ∧ (i 2).val < win0_6.index t 2 * 74 + 74; omega

/-- THE RESULT ARRAY after the run is `result`. -/
theorem final (c : Dev nD) : (dats m 0 c).arrAt 6 cfg0.N = result m c :=
  (dats m 0 c).arrAt_eq_of_cover 6 (result m c) (fun t _ => flushed_eq m c t) cover

/-- The kernel's run, read: the result array at the logits, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Logits

end
-- ==== Proof.lean ====
/-
  The tagging projection: the kernel against its jnp reference, on the extended reals.

  Both programs gather, for every character position (b, t), row word_idx[b, t] of the word array, mix it with the character
  row at the position's rate r (the head rate on a word's first character, the mid rate elsewhere) as g·r + c·(1 - r), zero
  the positions that are not valid, multiply by the projection matrix and add the bias. They differ in where the zeroing
  happens: the reference selects between the mixed row and zero on the validity bit; the kernel multiplies both scales,
  r and 1 - r, by the bit read as the number 0 or 1 before mixing, on the host, and a fused pallas_call then computes
  (g·sw + c·sc) · W + bias on 512-row blocks, rounding to bf16 on the way into the matrix unit. At the ideal instance the
  rounding is the identity, the matrix unit's product into a zero block and the host's dot_general are the same sum over
  the contracted axis, and the two maskings agree on every extended real (Proof/Spec.lean: a product with 1 is the factor,
  a product with 0 is 0 even at an infinity), so the claim holds without using that the inputs are finite.

  The modules: Spec (the logits as one function of the arrays, and the masking law), RefRun and RefRead (the reference's
  run and its stages read at an index), RefValue (the reference's result is the logits), Payload (the body's stored value
  at an index), Block (a stored block against the logits), HostSide (the arrays the host hands the region),
  KernelValue (what each grid point writes back, the tiling of the result array, the kernel's run), and here the claims.
  Nothing was rewritten when the kernel was idealized, so `preserves` is `True`.
-/
import proofs.«160621_j61564061220928_1_alg».proof.Defs
import proofs.«160621_j61564061220928_1_alg».proof.Proof.Gen.Kernel
import proofs.«160621_j61564061220928_1_alg».proof.Proof.Gen.Kernel.Skeleton
import proofs.«160621_j61564061220928_1_alg».proof.Proof.Gen.Kernel.Launch
import proofs.«160621_j61564061220928_1_alg».proof.Proof.Gen.Kernel.Points
import proofs.«160621_j61564061220928_1_alg».proof.Proof.Gen.Kernel.Frame
import proofs.«160621_j61564061220928_1_alg».proof.Proof.Gen.KernelIdeal
import proofs.«160621_j61564061220928_1_alg».proof.Proof.Gen.KernelIdeal.Skeleton
import proofs.«160621_j61564061220928_1_alg».proof.Proof.Gen.KernelIdeal.Launch
import proofs.«160621_j61564061220928_1_alg».proof.Proof.Gen.KernelIdeal.Points
import proofs.«160621_j61564061220928_1_alg».proof.Proof.Gen.KernelIdeal.Frame
import proofs.«160621_j61564061220928_1_alg».proof.Proof.Gen.KernelIdeal.Value
import proofs.«160621_j61564061220928_1_alg».proof.Proof.Gen.ReferenceIdeal
import proofs.«160621_j61564061220928_1_alg».proof.Proof.Gen.Pre_finite_inputs
import proofs.«160621_j61564061220928_1_alg».proof.Proof.RefRun
import proofs.«160621_j61564061220928_1_alg».proof.Proof.RefRead
import proofs.«160621_j61564061220928_1_alg».proof.Proof.RefValue
import proofs.«160621_j61564061220928_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both runs end with the result array at the tagging logits of arguments that agree: the kernel's of the arrays the
    host hands its region (the gathered word rows the reference's own gather stage), the reference's of its stages. -/
theorem algebraic : Cert.algebraic_KernelIdeal_ReferenceIdeal := by
  intro m ρ m' ρ' _ hagree
  refine ⟨fun c => Cert.KernelIdeal.Logits.result m c, Cert.KernelIdeal.Logits.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6⟩ := hagree c
  show _ = Cert.KernelIdeal.Logits.result m c
  rw [Cert.ReferenceIdeal.ReadP.val_main_v18_eq, Cert.ReferenceIdeal.RefValue.result_eq, e0, e1, e2, e3, e4, e5, e6]
  unfold Cert.KernelIdeal.Logits.result
  rw [Cert.KernelIdeal.HostSide.V_gathered]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
